-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x2048x4096 .f32) (main_arg1 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2x2048x4096 : Shape := ⟨3, ![2, 2048, 4096]⟩
abbrev S4096x4096 : Shape := ⟨2, ![4096, 4096]⟩
abbrev S512x512 : Shape := ⟨2, ![512, 512]⟩
abbrev S128x4096 : Shape := ⟨2, ![128, 4096]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S2x2048x4096, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S128x4096, .f32⟩
  | .local _ .vmem, ⟨5, _⟩ => ⟨S128x4096, .f32⟩
  | .local _ .vmem, ⟨6, _⟩ => ⟨S4096x4096, .bf16⟩
  | .local _ .vmem, ⟨7, _⟩ => ⟨S128x4096, .f32⟩
  | .local _ .vmem, ⟨8, _⟩ => ⟨S128x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  packedbf16_S512x512_S512x512_0_0 : (Rect.unit (s := S512x512) ![0, 0] S512x512.size inb_S512x512_S512x512_0_0).PackedRows (EltTy.packing .bf16)
  shapeCasts_S2x2048x4096_S4096x4096 : S2x2048x4096.ShapeCasts S4096x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S4096x4096_S2x2048x4096 : S4096x4096.ShapeCasts S2x2048x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .f32 = 32 ∨ (Rect.block (s := S4096x4096) S128x4096.size (cc1_transform_2 i) (hinb1_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S_, .f32⟩
  | .hbm, ⟨3, _⟩ => ⟨S2x2048x4096, .f32⟩
  | .hbm, ⟨4, _⟩ => ⟨S2x2048x4096, .i1⟩
  | .hbm, ⟨5, _⟩ => ⟨S_, .f32⟩
  | .hbm, ⟨6, _⟩ => ⟨S2x2048x4096, .f32⟩
  | .hbm, ⟨7, _⟩ => ⟨S2x2048x4096, .i1⟩
  | .hbm, ⟨8, _⟩ => ⟨S_, .f32⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S2x2048x4096, .f32⟩
  | .hbm, ⟨13, _⟩ => ⟨S_, .f32⟩
  | .hbm, ⟨14, _⟩ => ⟨S2x2048x4096, .f32⟩
  | .hbm, ⟨15, _⟩ => ⟨S2x2048x4096, .f32⟩
  | .hbm, ⟨16, _⟩ => ⟨S2x2048x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S4096x4096, .f32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_cst_6 : Ref sig .tc := ⟨.hbm, 23, rfl⟩
abbrev main_cst_7 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_cst_8 : Ref sig .tc := ⟨.hbm, 28, rfl⟩
abbrev main_call3_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  bcast_S_S2x2048x4096 : S_.BroadcastsInDim S2x2048x4096 (![] : Fin 0 → Fin S2x2048x4096.rank)
  bcast_S_S4096x4096 : S_.BroadcastsInDim S4096x4096 (![] : Fin 0 → Fin S4096x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.KernelRun.lean ====
/-
  The idealized kernel program's run, read at its result.

  The program is four segments: the weight-quantizing region, a reshape of the activations, the matrix-product
  region, and a reshape of the product into the result.  The frame certificate chains the segments through the buffer
  contents at each boundary — the launch memory, then what each region's write-backs leave and what each host
  operation computes — and ends with every unscoped buffer at the last boundary's contents.  Its statement keeps only
  the argument arrays; here the same chain is read at the result buffer as well, so that the result after any
  execution is the last boundary's contents at that buffer.
-/
import proofs.«132346_j68616397521439_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents, and the two argument arrays are as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.Whole

end
-- ==== Proof.Ternary.lean ====
/-
  The mathematics both programs compute, stated once, with no program in sight.

  A three-level quantizer sends a value above a threshold to a positive level, a value below the negated
  threshold to the negative level, and everything between to zero.  Activations are quantized with threshold
  0.33 and levels ±0.5, weights with threshold 0.2 and levels ±0.6 (all four as their f32 words, never evaluated).
  The result is the linear layer on the quantized operands:

      out[b, s, o] = ∑_d  qx (x[b, s, d]) · qw (w[o, d]).

  One program computes it directly.  The other first stores the quantized weight transposed, `wt[d, o] = qw (w[o, d])`,
  flattens batch and sequence into one row axis (row `b · 2048 + s`), multiplies rows by `wt`, and unflattens.
  `out_eq` says the two arrangements are the same array; only a re-indexing of each sum's terms is involved, so no
  property of the extended reals beyond equality of the summands is used.
-/
import Idealize.ShloMosaic.PureOps.Ideal
import Idealize.ShloMosaic.Lib.ValueIdx

noncomputable section

open scoped BigOperators

namespace Cert.Ternary

open Idealize.ShloMosaic Idealize.ShloMosaic.ValueIdx

/-- The square [4096, 4096] index set (weights, flattened activations, flattened results). -/
abbrev SW : Shape := ⟨2, ![4096, 4096]⟩
/-- The [2, 2048, 4096] index set (activations and results with batch and sequence apart). -/
abbrev SX : Shape := ⟨3, ![2, 2048, 4096]⟩

/-- The three-level quantizer with threshold word `t`, negated-threshold word `tn`, and level words `lo`, `hi`:
    `hi` above `t`, `lo` below `tn`, zero otherwise. -/
def tern (t tn lo hi : BitVec 32) (v : EReal) : EReal :=
  Scalar.select (FloatOps.cmpf (F := Ideal) (φ := .f32) .ogt v (Ideal.ofBits .f32 t)) (Ideal.ofBits .f32 hi)
    (Scalar.select (FloatOps.cmpf (F := Ideal) (φ := .f32) .olt v (Ideal.ofBits .f32 tn)) (Ideal.ofBits .f32 lo)
      (Ideal.ofBits .f32 0x00000000#32))

/-- The activation quantizer: threshold 0.33, levels ±0.5. -/
def qx (v : EReal) : EReal := tern 0x3EA8F5C3#32 0xBEA8F5C3#32 0xBF000000#32 0x3F000000#32 v
/-- The weight quantizer: threshold 0.2, levels ±0.6. -/
def qw (v : EReal) : EReal := tern 0x3E4CCCCD#32 0xBE4CCCCD#32 0xBF19999A#32 0x3F19999A#32 v

/-- The quantized weight, transposed: entry (d, o) is the quantized w[o, d]. -/
def quantWT (w : SW.Idx → EReal) : SW.Idx → EReal :=
  fun j => qw (w (ix2 (n0 := 4096) (n1 := 4096) (j 1) (j 0)))

/-- Rows of quantized activations against a [d, o] matrix: entry (r, o) is ∑_d qx (x2[r, d]) · wt[d, o]. -/
def rowsTimes (x2 wt : SW.Idx → EReal) : SW.Idx → EReal :=
  fun i => ∑ k : Fin 4096, qx (x2 (ix2 (n0 := 4096) (n1 := 4096) (i 0) k)) * wt (ix2 (n0 := 4096) (n1 := 4096) k (i 1))

/-- Batch and sequence flattened into one row axis: row r is (r / 2048, r % 2048). -/
def flat (x : SX.Idx → EReal) : SW.Idx → EReal :=
  fun i => x (ix3 (n0 := 2) (n1 := 2048) (n2 := 4096)
    ⟨(i 0).val / 2048, by have := idx2_lt0 i; omega⟩ ⟨(i 0).val % 2048, by omega⟩ (i 1))

/-- The inverse arrangement: (b, s) is row b · 2048 + s. -/
def unflat (y : SW.Idx → EReal) : SX.Idx → EReal :=
  fun i => y (ix2 (n0 := 4096) (n1 := 4096)
    ⟨(i 0).val * 2048 + (i 1).val, by
      have h0 : (i 0).val < 2 := (i 0).isLt
      have h1 : (i 1).val < 2048 := (i 1).isLt
      omega⟩ (i 2))

/-- The linear layer on the quantized operands, entry by entry. -/
def out (x : SX.Idx → EReal) (w : SW.Idx → EReal) : SX.Idx → EReal :=
  fun i => ∑ k : Fin 4096, qx (x (ix3 (n0 := 2) (n1 := 2048) (n2 := 4096) (i 0) (i 1) k))
    * qw (w (ix2 (n0 := 4096) (n1 := 4096) (i 2) k))

/-- Flattening, multiplying by the transposed quantized weight and unflattening is the linear layer: term by term,
    row `b · 2048 + s` of the flattened activations is row (b, s), and entry (d, o) of the transposed weight is
    the quantized w[o, d]. -/
theorem out_eq (x : SX.Idx → EReal) (w : SW.Idx → EReal) :
    unflat (rowsTimes (flat x) (quantWT w)) = out x w := by
  funext i
  unfold unflat rowsTimes flat quantWT out
  refine Finset.sum_congr rfl fun k _ => ?_
  have h0 : (i 0).val < 2 := (i 0).isLt
  have h1 : (i 1).val < 2048 := (i 1).isLt
  have ex : (ix3 (n0 := 2) (n1 := 2048) (n2 := 4096)
      ⟨((ix2 (n0 := 4096) (n1 := 4096) ⟨(i 0).val * 2048 + (i 1).val, by omega⟩ k) 0).val / 2048, by
        show ((i 0).val * 2048 + (i 1).val) / 2048 < 2; omega⟩
      ⟨((ix2 (n0 := 4096) (n1 := 4096) ⟨(i 0).val * 2048 + (i 1).val, by omega⟩ k) 0).val % 2048, by omega⟩
      ((ix2 (n0 := 4096) (n1 := 4096) ⟨(i 0).val * 2048 + (i 1).val, by omega⟩ k) 1))
      = ix3 (n0 := 2) (n1 := 2048) (n2 := 4096) (i 0) (i 1) k := by
    funext a
    match a with
    | ⟨0, _⟩ => exact Fin.ext (by show ((i 0).val * 2048 + (i 1).val) / 2048 = (i 0).val; omega)
    | ⟨1, _⟩ => exact Fin.ext (by show ((i 0).val * 2048 + (i 1).val) % 2048 = (i 1).val; omega)
    | ⟨2, _⟩ => rfl
  exact congrArg₂ (· * ·) (congrArg qx (congrArg x ex)) rfl

end Cert.Ternary

end
-- ==== Proof.Flatten.lean ====
/-
  A reshape between [2, 2048, 4096] and [4096, 4096] keeps every element's row-major position, so it is the
  flattening of batch and sequence into one row axis (row b · 2048 + s) in one direction and its inverse in the other.
-/
import proofs.«132346_j68616397521439_1_alg».proof.Proof.Ternary
import Idealize.ShloMosaic.Lib.Pipeline.Value

noncomputable section

namespace Cert.Ternary

open Idealize.ShloMosaic Idealize.ShloMosaic.ValueIdx

/-- Reshaping [2, 2048, 4096] to [4096, 4096] reads row r at (r / 2048, r % 2048): both sit at row-major position
    r · 4096 + column. -/
theorem shapeCast_flat (x : SX.Idx → EReal) (h : SX.ShapeCasts SW) : shapeCast SW x h = flat x := by
  funext j
  unfold flat
  refine shapeCast_apply x h j _ ?_
  rw [Shape.rowMajor_val_three, Shape.rowMajor_val_two]
  show ((j 0).val / 2048 * 2048 + (j 0).val % 2048) * 4096 + (j 1).val = (j 0).val * 4096 + (j 1).val
  omega

/-- Reshaping [4096, 4096] to [2, 2048, 4096] reads (b, s) at row b · 2048 + s. -/
theorem shapeCast_unflat (y : SW.Idx → EReal) (h : SW.ShapeCasts SX) : shapeCast SX y h = unflat y := by
  funext i
  unfold unflat
  refine shapeCast_apply y h i _ ?_
  rw [Shape.rowMajor_val_three, Shape.rowMajor_val_two]
  rfl

end Cert.Ternary

end
-- ==== Proof.KernelValue.lean ====
/-
  The result of the idealized kernel program, as a function of its two arguments.

  Walking the boundary contents backwards from the result buffer:
  the result is the reshape of the product array; the product array is what the matrix-product region leaves, rows of
  quantized flattened activations against the transposed quantized weight as that region finds them; the flattened
  activations are the reshape of the first argument (no region before has written it); the transposed quantized weight
  is what the quantizing region leaves, untouched by the reshape between the regions, and that region reads the second
  argument at launch.  What each region leaves is taken here as a hypothesis about that region alone, at any entry
  contents; the two reshapes are the flattening and its inverse, and the re-arranged product is the linear layer.
-/
import proofs.«132346_j68616397521439_1_alg».proof.Proof.Gen.KernelIdeal.Frame
import proofs.«132346_j68616397521439_1_alg».proof.Proof.Flatten
import Idealize.ShloMosaic.Lib.StableHlo.Run

noncomputable section

namespace Cert.KernelIdeal.Whole

open Cert.KernelIdeal Cert.KernelIdeal.Gen Cert.Ternary
open Idealize.ShloMosaic Idealize.ShloMosaic.TcCoe Idealize.ShloMosaic.StableHlo Idealize.SL.Sem

variable (m : (ℓ : Loc nD τ sig) → Buf (Elt Ideal) ℓ) (ρ : Dev nD → PrngReg)

/-- The result buffer at the last boundary is the reshape of the product array as the second region leaves it. -/
theorem result_is_reshape (c : Dev nD) :
    W4 m ρ c (Proc.devRef .tc main_v3)
      = (shapeCast S2x2048x4096 (W3 m ρ c (Proc.devRef .tc main_v2)) shapeCasts_S4096x4096_S2x2048x4096 : S2x2048x4096.Idx → Elt Ideal .f32) := by
  show StableHlo.after hostOps2 (W3 m ρ c) (Proc.devRef .tc main_v3) = _
  generalize W3 m ρ c = Wv
  after_results
  rfl

/-- The flattened activations the second region finds are the reshape of the first argument at launch. -/
theorem entry_activations (c : Dev nD) :
    V2 m ρ c main_v1
      = (shapeCast S4096x4096 (m ((c : Thread nD τ).loc main_arg0)) shapeCasts_S2x2048x4096_S4096x4096 : S4096x4096.Idx → Elt Ideal .f32) := by
  have h0 : W1 m ρ c (Proc.devRef .tc main_arg0) = m ((c : Thread nD τ).loc main_arg0) := W1_of_ne m ρ c main_arg0 (by decide)
  rw [← h0]
  show StableHlo.after hostOps1 (W1 m ρ c) (Proc.devRef .tc main_v1) = _
  generalize W1 m ρ c = Wv
  after_results
  rfl

/-- The quantized weight the second region finds is the array the first region leaves. -/
theorem entry_weight (c : Dev nD) :
    V2 m ρ c main_v0 = (dat0 (V0 m ρ) c).arrAt 1 cfg0.N := by
  rw [← W1_arr m ρ c 1]
  show StableHlo.after hostOps1 (W1 m ρ c) (Proc.devRef .tc main_v0) = W1 m ρ c (Proc.devRef .tc main_v0)
  generalize W1 m ρ c = Wv
  after_results

/-- The result of the program: the linear layer on the quantized arguments, given what each region leaves. -/
theorem result_value
    (hquant : ∀ (V : (c : Dev nD) → (b : Ref sig .tc) → Buf (Elt Ideal) ((c : Thread nD τ).loc b)) (c : Dev nD),
      (dat0 (F := Ideal) V c).arrAt 1 cfg0.N = quantWT (V c main_arg1))
    (hprod : ∀ (V : (c : Dev nD) → (b : Ref sig .tc) → Buf (Elt Ideal) ((c : Thread nD τ).loc b)) (c : Dev nD),
      (dat1 (F := Ideal) V c).arrAt 2 cfg1.N = rowsTimes (V c main_v1) (V c main_v0))
    (c : Dev nD) :
    W4 m ρ c (Proc.devRef .tc main_v3) = out (m ((c : Thread nD τ).loc main_arg0)) (m ((c : Thread nD τ).loc main_arg1)) := by
  rw [result_is_reshape, W3_arr m ρ c 2, hprod (V2 m ρ) c, entry_activations, entry_weight, hquant (V0 m ρ) c]
  rw [shapeCast_unflat, shapeCast_flat]
  exact out_eq _ _

end Cert.KernelIdeal.Whole

end
-- ==== Proof.QuantPayload.lean ====
/-
  One block of the weight quantization, read entry by entry.

  The body of the first call loads a 512 × 512 block of the weight, quantizes every entry to one of three levels
  (above the threshold, below its negation, between), rounds to the narrower float type (the identity on the
  extended reals) and transposes the block.  So entry (p, q) of what it stores is the weight quantizer applied to
  entry (q, p) of what it loaded.
-/
import proofs.«132346_j68616397521439_1_alg».proof.Proof.Gen.KernelIdeal.Frame
import proofs.«132346_j68616397521439_1_alg».proof.Proof.Ternary
import Idealize.ShloMosaic.Lib.Pipeline.Value
import Idealize.ShloMosaic.Lib.ValueIdx

noncomputable section

namespace Cert.KernelIdeal.QuantRegion

open Cert.KernelIdeal Cert.KernelIdeal.Gen Idealize.ShloMosaic Idealize.ShloMosaic.ValueIdx Idealize.ShloMosaic.TcCoe
open Idealize.ShloMosaic.Pipeline (Dat)

/-- The stored block at position (p, q) is the weight quantizer of the loaded block at the transposed position
    (q, p): the transposition moves the position, and every other operation of the body acts entry by entry. -/
theorem pay_apply (x0 : Vec Ideal S512x512 .f32) (p q : Fin 512) :
    k0_pay1 x0 (ix2 p q) = Cert.Ternary.qw (x0 (ix2 q p)) := by
  unfold k0_pay1
  refine (transpose_apply [1, 0] _ transposes_S512x512_p1_0_S512x512 (ix2 p q) (ix2 q p) ?_).trans ?_
  · intro b
    match b with
    | ⟨0, _⟩ => rfl
    | ⟨1, _⟩ => rfl
  · rfl

end Cert.KernelIdeal.QuantRegion

end
-- ==== Proof.QuantRegion.lean ====
/-
  The first call, read as one array.

  The 8 × 8 grid visits the weight block by block: at the point with coordinates (I, J) it loads block (I, J) of the
  weight (512 × 512 entries), quantizes and transposes it, and stores the result as block (J, I) of the output.
  Entry (p, q) of output block (J, I) is output entry (J·512 + p, I·512 + q); it holds the quantizer of entry (q, p)
  of weight block (I, J), which is weight entry (I·512 + q, J·512 + p): the transposed position.  The transposition
  of the block index by the index maps and of the position inside the block by the body meet in that one identity.
  The 64 output blocks tile the array, so after the last point output entry (d, o) is the quantized w[o, d].
-/
import proofs.«132346_j68616397521439_1_alg».proof.Proof.QuantPayload

noncomputable section

namespace Cert.KernelIdeal.QuantRegion

open Cert.KernelIdeal Cert.KernelIdeal.Gen Idealize.ShloMosaic Idealize.ShloMosaic.ValueIdx Idealize.ShloMosaic.TcCoe
open Idealize.ShloMosaic.Pipeline (Dat)

/-- The zero offsets of the body's whole-block load and store, as the constant function. -/
theorem zero_offsets : (![0, 0] : Fin 2 → Nat) = fun _ => 0 := funext fun a => by fin_cases a <;> rfl

/-- The two index maps, decided over the 64 points: the output's block index is the input's with its two
    coordinates exchanged, and both coordinates stay below 8. -/
theorem block_index_swap : ∀ t : Fin cfg0.N,
    win0_1.index t (0 : Fin 2) = win0_0.index t (1 : Fin 2)
    ∧ win0_1.index t (1 : Fin 2) = win0_0.index t (0 : Fin 2)
    ∧ win0_1.index t (0 : Fin 2) ≤ 7 ∧ win0_1.index t (1 : Fin 2) ≤ 7 :=
  (by decide +kernel : ∀ t : Fin grid0.N, _)

/-- Every one of the 8 × 8 output blocks is some point's. -/
theorem block_index_onto : ∀ (q0 q1 : Fin 8), ∃ t : Fin cfg0.N, win0_1.index t = ![q0.val, q1.val] :=
  (by decide +kernel : ∀ (q0 q1 : Fin 8), ∃ t : Fin grid0.N, win0_1.index t = ![q0.val, q1.val])

section Region
variable (V : (c : Dev nD) → (b : Ref sig .tc) → Buf (Elt Ideal) ((c : Thread nD τ).loc b))

/-- The input block at point `t`, read at position (q, p), is the weight at the array index whose coordinates are
    the block's coordinate times 512 plus the position, axis by axis. -/
theorem weight_block_apply (c : Dev nD) (t : Fin cfg0.N) (q p : Fin 512) (i : S4096x4096.Idx)
    (h0 : win0_0.index t (0 : Fin 2) * 512 + 1 * q.val = (i 0).val)
    (h1 : win0_0.index t (1 : Fin 2) * 512 + 1 * p.val = (i 1).val) :
    iblk0 V c 0 t (ix2 q p) = V c main_arg1 i := by
  unfold iblk0
  show V c main_arg1 (((cfg0.win 0).blk t).view.emb (ix2 q p)) = V c main_arg1 i
  refine congrArg _ (funext fun a => Fin.ext ?_)
  match a with
  | ⟨0, _⟩ => exact h0
  | ⟨1, _⟩ => exact h1

/-- What point `t` writes back is block `t` of the transposed quantized weight. -/
theorem flushed_eq (c : Dev nD) (t : Fin cfg0.N) :
    (dat0 (F := Ideal) V c).flushed 1 t
      = ((cfg0.win 1).blk t).view.read (Elt Ideal) (Cert.Ternary.quantWT (V c main_arg1)) := by
  show (cfg0.win 1).cut (grid0.coords t) ((dat0 V c).after 1 t) = _
  rw [after0_1]
  unfold out0_1
  rw [View.canon_unit_zero zero_offsets]
  simp only [View.ld_unit_zero (S := S512x512) zero_offsets]
  obtain ⟨e0, e1, -, -⟩ := block_index_swap t
  funext j
  obtain ⟨p, q, rfl⟩ : ∃ (p : Fin 512) (q : Fin 512), j = ix2 p q := ⟨j 0, j 1, eq_ix2 j⟩
  show k0_pay1 (iblk0 V c 0 t) (ix2 p q)
    = Cert.Ternary.quantWT (V c main_arg1) (((cfg0.win 1).blk t).view.emb (ix2 p q))
  refine (pay_apply _ p q).trans ?_
  unfold Cert.Ternary.quantWT
  refine congrArg Cert.Ternary.qw ?_
  refine weight_block_apply V c t q p _ ?_ ?_
  · show _ = win0_1.index t (1 : Fin 2) * 512 + 1 * q.val
    omega
  · show _ = win0_1.index t (0 : Fin 2) * 512 + 1 * p.val
    omega

/-- An index of the output array is in point `t`'s block iff each coordinate is in the block's range on its axis. -/
theorem mem_blk (t : Fin cfg0.N) (i : S4096x4096.Idx) :
    i ∈ ((cfg0.win 1).blk t).view.set
      ↔ ∀ a : Fin 2, win0_1.index t a * S512x512.size a ≤ (i a).val
          ∧ (i a).val < win0_1.index t a * S512x512.size a + S512x512.size a := by
  show i ∈ ((View.whole main_v0).slice (win0_1.rect t)).set ↔ _
  rw [View.set_slice_whole, Rect.mem_set_unit]
  exact Iff.rfl

/-- The 64 blocks tile the output: index (d, o) is in the block of the point whose output block index is
    (d / 512, o / 512), and every point writes its block back. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := block_index_onto ⟨(i 0).val / 512, by omega⟩ ⟨(i 1).val / 512, by omega⟩
  have q0 : win0_1.index t (0 : Fin 2) = (i 0).val / 512 := congrFun ht 0
  have q1 : win0_1.index t (1 : Fin 2) = (i 1).val / 512 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 512 ≤ (i 1).val ∧ (i 1).val < win0_1.index t (1 : Fin 2) * 512 + 512
    omega

/-- THE OUTPUT ARRAY after all 64 points: entry (d, o) is the quantized w[o, d]. -/
theorem final (c : Dev nD) :
    (dat0 (F := Ideal) V c).arrAt 1 cfg0.N = Cert.Ternary.quantWT (V c main_arg1) :=
  (dat0 V c).arrAt_eq_of_cover 1 (Cert.Ternary.quantWT (V c main_arg1)) (fun t _ => flushed_eq V c t) cover

end Region

end Cert.KernelIdeal.QuantRegion

end
-- ==== Proof.MatmulPayload.lean ====
/-
  The matmul body's value at an index.

  The body quantizes its left operand elementwise with the activation quantizer, leaves the right operand as loaded,
  and multiplies with a zero accumulator.  Read at row p and column q of the [128, 4096] result this is the sum over the
  4096 contraction positions k of the quantized left element (p, k) times the right element (k, q): the dot contracts the
  left operand's second axis against the right operand's first, so the left index at position k is (p, k) and the right
  index is (k, q).
-/
import proofs.«132346_j68616397521439_1_alg».proof.Proof.Gen.KernelIdeal.Frame
import proofs.«132346_j68616397521439_1_alg».proof.Proof.Ternary
import Idealize.ShloMosaic.Lib.Pipeline.Value
import Idealize.ShloMosaic.Lib.ValueIdx
import Idealize.ShloMosaic.PureOps.Ideal.Laws

noncomputable section

open scoped BigOperators

namespace Cert.KernelIdeal.MatmulRegion

open Cert.KernelIdeal Cert.KernelIdeal.Gen Idealize.ShloMosaic Idealize.ShloMosaic.ValueIdx Idealize.ShloMosaic.TcCoe

/-! ## The dot's operand indices, axis by axis -/

/-- The left operand's free axis carries the result's row. -/
theorem lhs_row (i : S128x4096.Idx) (k : dot_S128x4096_S4096x4096_S128x4096_1_0_0_1_n_n.contr.Idx) :
    (dot_S128x4096_S4096x4096_S128x4096_1_0_0_1_n_n.lhsIdx i k 0).val = (i 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl

/-- The left operand's contracted axis carries the contraction position. -/
theorem lhs_contr (i : S128x4096.Idx) (k : dot_S128x4096_S4096x4096_S128x4096_1_0_0_1_n_n.contr.Idx) :
    (dot_S128x4096_S4096x4096_S128x4096_1_0_0_1_n_n.lhsIdx i k 1).val = (k ⟨0, by decide⟩).val :=
  dot_S128x4096_S4096x4096_S128x4096_1_0_0_1_n_n.lhsIdx_val_of_single rfl i k

/-- The right operand's contracted axis carries the contraction position. -/
theorem rhs_contr (i : S128x4096.Idx) (k : dot_S128x4096_S4096x4096_S128x4096_1_0_0_1_n_n.contr.Idx) :
    (dot_S128x4096_S4096x4096_S128x4096_1_0_0_1_n_n.rhsIdx i k 0).val = (k ⟨0, by decide⟩).val :=
  dot_S128x4096_S4096x4096_S128x4096_1_0_0_1_n_n.rhsIdx_val_of_single rfl i k

/-- The right operand's free axis carries the result's column. -/
theorem rhs_col (i : S128x4096.Idx) (k : dot_S128x4096_S4096x4096_S128x4096_1_0_0_1_n_n.contr.Idx) :
    (dot_S128x4096_S4096x4096_S128x4096_1_0_0_1_n_n.rhsIdx i k 1).val = (i 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-! ## The product with a zero accumulator, at an index -/

/-- Entry (p, q) of the product of a [128, 4096] by a [4096, 4096] operand into a zero accumulator is
    the sum over k of left (p, k) times right (k, q). -/
theorem matmul_at (a : FVec Ideal S128x4096 .bf16) (b : FVec Ideal S4096x4096 .bf16) (p : Fin 128) (q : Fin 4096) :
    matmul dot_S128x4096_S4096x4096_S128x4096_1_0_0_1_n_n none a b (constant (F := Ideal) S128x4096 .f32 0x00000000#32)
        (ix2 p q)
      = ∑ k : Fin 4096, a (ix2 p k) * b (ix2 k q) := by
  refine (Ideal.matmul_constant_zero_apply dot_S128x4096_S4096x4096_S128x4096_1_0_0_1_n_n none a b (ix2 p q)).trans ?_
  rw [← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx (ix2 p q)
      ((contrEquiv1 dot_S128x4096_S4096x4096_S128x4096_1_0_0_1_n_n 4096 rfl rfl).symm k) = ix2 p k :=
    funext fun x => Fin.ext (by
      match x with
      | ⟨0, _⟩ => exact lhs_row _ _
      | ⟨1, _⟩ => exact (lhs_contr _ _).trans hk)
  have er : dot_S128x4096_S4096x4096_S128x4096_1_0_0_1_n_n.rhsIdx (ix2 p q)
      ((contrEquiv1 dot_S128x4096_S4096x4096_S128x4096_1_0_0_1_n_n 4096 rfl rfl).symm k) = ix2 k q :=
    funext fun x => Fin.ext (by
      match x with
      | ⟨0, _⟩ => exact (rhs_contr _ _).trans hk
      | ⟨1, _⟩ => exact rhs_col _ _)
  rw [el, er]

/-! ## The body's payload, at an index -/

/-- The elementwise stage in front of the product is the activation quantizer, element by element. -/
theorem quantized_at (x0 : Vec Ideal S128x4096 .f32) (j : S128x4096.Idx) :
    (truncf .bf16
      (select (cmpf .ogt x0 (broadcast S128x4096 (Scalar.ofBits (F := Ideal) .f32 0x3EA8F5C3#32)))
        (broadcast S128x4096 (Scalar.ofBits (F := Ideal) .f32 0x3F000000#32))
        (select (cmpf .olt x0 (broadcast S128x4096 (Scalar.ofBits (F := Ideal) .f32 0xBEA8F5C3#32)))
          (broadcast S128x4096 (Scalar.ofBits (F := Ideal) .f32 0xBF000000#32))
          (broadcast S128x4096 (Scalar.ofBits (F := Ideal) .f32 0x00000000#32))))
      bitsLt_bf16_f32 : FVec Ideal S128x4096 .bf16) j = Cert.Ternary.qx (x0 j) := rfl

/-- Entry (p, q) of what the body stores: the sum over k of the quantized activation (p, k) times the
    right operand's (k, q). -/
theorem pay_apply (x0 : Vec Ideal S128x4096 .f32) (x1 : Vec Ideal S4096x4096 .bf16) (p : Fin 128) (q : Fin 4096) :
    k1_pay1 x0 x1 (ix2 p q) = ∑ k : Fin 4096, Cert.Ternary.qx (x0 (ix2 p k)) * x1 (ix2 k q) := by
  unfold k1_pay1
  simp only [shapeCast_self]
  refine (matmul_at _ _ p q).trans ?_
  rfl

end Cert.KernelIdeal.MatmulRegion

end
-- ==== Proof.MatmulRegion.lean ====
/-
  The matmul call's result array, as one function of the arrays it reads.

  The call runs 32 points.  Point t reads the [128, 4096] block of rows t·128 … t·128 + 127 of the flattened activations and
  the whole [4096, 4096] right operand, and writes the [128, 4096] block of the same rows of the result.  By the body's value at an
  index, entry (p, q) of what point t writes is the sum over k of the quantized activation (t·128 + p, k) times the right
  operand's (k, q): block t of the rows-times-matrix array.  The 32 row blocks tile the 4096 rows (row r lies in block r / 128),
  so after the last point the result array is that array everywhere.
-/
import proofs.«132346_j68616397521439_1_alg».proof.Proof.MatmulPayload

noncomputable section

open scoped BigOperators

namespace Cert.KernelIdeal.MatmulRegion

open Cert.KernelIdeal Cert.KernelIdeal.Gen Idealize.ShloMosaic Idealize.ShloMosaic.ValueIdx Idealize.ShloMosaic.TcCoe
open Idealize.ShloMosaic.Pipeline (Dat)

/-- The two zero offsets of a whole-buffer access, as the constant function. -/
theorem zero_offsets : (![0, 0] : Fin 2 → Nat) = fun _ => 0 := funext fun a => by fin_cases a <;> rfl

/-! ## The index maps over the 32 points -/

/-- The activations' block moves with the result's block along the rows and sits at column block 0; the right operand's one
    block is block (0, 0); the result's row block is at most 31 and its column block is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 31
    ∧ win1_2.index t (1 : Fin 2) = 0 :=
  (by decide +kernel : ∀ t : Fin grid1.N, _)

/-- Every row block is some point's. -/
theorem idx_onto : ∀ q0 : Fin 32, ∃ t : Fin cfg1.N, win1_2.index t = ![q0.val, 0] :=
  (by decide +kernel : ∀ q0 : Fin 32, ∃ t : Fin grid1.N, win1_2.index t = ![q0.val, 0])

section Region

variable (V : (c : Dev nD) → (b : Ref sig .tc) → Buf (Elt Ideal) ((c : Thread nD τ).loc b))

/-! ## The input blocks, element by element -/

/-- Element (p, k) of the activations' block at point t is the flattened activations' entry in the row the result's
    block puts p at, column k. -/
theorem x_block_at (c : Dev nD) (t : Fin cfg1.N) (p : Fin 128) (q k : Fin 4096) :
    iblk1 (F := Ideal) V c 0 t (ix2 p k)
      = V c main_v1 (ix2 ((((cfg1.win 2).blk t).view.emb (ix2 p q)) 0) k) := by
  unfold iblk1
  show V c main_v1 (((cfg1.win 0).blk t).view.emb (ix2 p k)) = V c main_v1 _
  refine congrArg (V c main_v1) ?_
  obtain ⟨e0, e1, -, -, -, -⟩ := idx_facts t
  funext a; apply Fin.ext
  match a with
  | ⟨0, _⟩ =>
    show win1_0.index t (0 : Fin 2) * 128 + 1 * p.val = win1_2.index t (0 : Fin 2) * 128 + 1 * p.val
    rw [e0]
  | ⟨1, _⟩ =>
    show win1_0.index t (1 : Fin 2) * 4096 + 1 * k.val = k.val
    omega

/-- Element (k, q) of the right operand's block at any point is the right operand's entry (k, q), q the column the result's
    block puts q at: the block is the whole array. -/
theorem w_block_at (c : Dev nD) (t : Fin cfg1.N) (p : Fin 128) (q k : Fin 4096) :
    iblk1 (F := Ideal) V c 1 t (ix2 k q)
      = V c main_v0 (ix2 k ((((cfg1.win 2).blk t).view.emb (ix2 p q)) 1)) := by
  unfold iblk1
  show V c main_v0 (((cfg1.win 1).blk t).view.emb (ix2 k q)) = V c main_v0 _
  refine congrArg (V c main_v0) ?_
  obtain ⟨-, -, e2, e3, -, e5⟩ := idx_facts t
  funext a; apply Fin.ext
  match a with
  | ⟨0, _⟩ =>
    show win1_1.index t (0 : Fin 2) * 4096 + 1 * k.val = k.val
    omega
  | ⟨1, _⟩ =>
    show win1_1.index t (1 : Fin 2) * 4096 + 1 * q.val = win1_2.index t (1 : Fin 2) * 4096 + 1 * q.val
    rw [e3, e5]

/-! ## What a point writes back -/

/-- Entry (p, q) of the body's result on point t's blocks is the rows-times-matrix array at the index the result's block
    puts (p, q) at. -/
theorem point_eq (c : Dev nD) (t : Fin cfg1.N) (p : Fin 128) (q : Fin 4096) :
    k1_pay1 (iblk1 (F := Ideal) V c 0 t) (iblk1 (F := Ideal) V c 1 t) (ix2 p q)
      = Cert.Ternary.rowsTimes (V c main_v1) (V c main_v0) (((cfg1.win 2).blk t).view.emb (ix2 p q)) := by
  refine (pay_apply _ _ p q).trans ?_
  unfold Cert.Ternary.rowsTimes
  refine Finset.sum_congr rfl fun k _ => ?_
  rw [x_block_at V c t p q k, w_block_at V c t p q k]

/-- What point t writes back is block t of the rows-times-matrix array of the arrays as the call finds them. -/
theorem flushed_eq (c : Dev nD) (t : Fin cfg1.N) :
    (dat1 (F := Ideal) V c).flushed 2 t
      = ((cfg1.win 2).blk t).view.read (Elt Ideal) (Cert.Ternary.rowsTimes (V c main_v1) (V c main_v0)) := by
  show (cfg1.win 2).cut (grid1.coords t) ((dat1 (F := Ideal) V c).after 2 t) = _
  rw [after1_2]
  unfold out1_2
  rw [View.canon_unit_zero zero_offsets]
  simp only [View.ld_unit_zero (S := S128x4096) zero_offsets, View.ld_unit_zero (S := S4096x4096) zero_offsets]
  funext j
  obtain ⟨p, q, rfl⟩ : ∃ (p : Fin 128) (q : Fin 4096), j = ix2 p q := ⟨j 0, j 1, eq_ix2 j⟩
  exact point_eq V c t p q

end Region

/-! ## The blocks cover the array -/

/-- An index is in point t's block when each coordinate is in the block's range on its axis. -/
theorem mem_blk (t : Fin cfg1.N) (i : S4096x4096.Idx) :
    i ∈ ((cfg1.win 2).blk t).view.set ↔ ∀ a : Fin 2, win1_2.index t a * S128x4096.size a ≤ (i a).val
      ∧ (i a).val < win1_2.index t a * S128x4096.size a + S128x4096.size a := by
  show i ∈ ((View.whole main_v2).slice (win1_2.rect t)).set ↔ _
  rw [View.set_slice_whole, Rect.mem_set_unit]
  exact Iff.rfl

/-- Row r of the array is in the block of the point whose row block is r / 128, and every point writes its block back. -/
theorem cover (i : S4096x4096.Idx) :
    ∃ t : Fin cfg1.N, (cfg1.win 2).flush t = true ∧ i ∈ ((cfg1.win 2).blk t).view.set := by
  have hi0 : (i 0).val < 4096 := idx2_lt0 i
  have hi1 : (i 1).val < 4096 := idx2_lt1 i
  obtain ⟨t, ht⟩ := idx_onto ⟨(i 0).val / 128, by omega⟩
  have q0 : win1_2.index t (0 : Fin 2) = (i 0).val / 128 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 4096 ≤ (i 1).val ∧ (i 1).val < win1_2.index t (1 : Fin 2) * 4096 + 4096
    omega

/-! ## The result array after the call -/

/-- After all 32 points, entry (r, o) of the result array is the sum over k of the quantized activation (r, k) times the right
    operand's (k, o), of the arrays as the call finds them. -/
theorem final (V : (c : Dev nD) → (b : Ref sig .tc) → Buf (Elt Ideal) ((c : Thread nD τ).loc b)) (c : Dev nD) :
    (dat1 (F := Ideal) V c).arrAt 2 cfg1.N = Cert.Ternary.rowsTimes (V c main_v1) (V c main_v0) :=
  (dat1 (F := Ideal) V c).arrAt_eq_of_cover 2 _ (fun t _ => flushed_eq V c t) cover

end Cert.KernelIdeal.MatmulRegion

end
-- ==== Proof.Reference.lean ====
/-
  The reference program computes the linear layer on the quantized operands.

  Read one operation at a time, the reference's result at (b, s, o) is the sum over d of its left operand at
  (b, s, d) times its right operand at (o, d); the left operand is the activation array passed through two nested
  selections on comparisons with the threshold words — the three-level quantizer `qx` —, the right operand the
  weight array through the same shape of selections, `qw`.  So the result is `Cert.Ternary.out` of the two arguments.
-/
import proofs.«132346_j68616397521439_1_alg».proof.Proof.Gen.ReferenceIdeal.Run
import proofs.«132346_j68616397521439_1_alg».proof.Proof.Gen.ReferenceIdeal.Read
import proofs.«132346_j68616397521439_1_alg».proof.Proof.Ternary

noncomputable section

open scoped BigOperators

namespace Cert.ReferenceIdeal.RefValue

open Cert.ReferenceIdeal Cert.ReferenceIdeal.Read Idealize.ShloMosaic Idealize.ShloMosaic.ValueIdx

/-- The reference's left operand of the product is the quantized activation, element by element. -/
theorem act_quant (x : (⟨S2x2048x4096, .f32⟩ : BufTy).Contents (Elt Ideal)) (j : S2x2048x4096.Idx) :
    val_main_v6 (F := Ideal) x j = Cert.Ternary.qx (x j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's right operand of the product is the quantized weight, element by element. -/
theorem weight_quant (w : (⟨S4096x4096, .f32⟩ : BufTy).Contents (Elt Ideal)) (j : S4096x4096.Idx) :
    val_main_v13 (F := Ideal) w j = Cert.Ternary.qw (w j) := by
  rw [val_main_v13_apply, val_main_v12_apply, val_main_v8_apply, val_main_v7_apply, val_main_cst_4_apply,
    val_main_call3_v0_apply, val_main_cst_8_apply, val_main_v11_apply, val_main_v10_apply, val_main_v9_apply,
    val_main_cst_5_apply, val_main_call2_v0_apply, val_main_cst_6_apply, val_main_call2_v1_apply, val_main_cst_7_apply]
  rfl

/-- The reference's result is the linear layer on the quantized operands: at (b, s, o) the sum over d of
    qx (x[b, s, d]) · qw (w[o, d]). -/
theorem result_eq (x : (⟨S2x2048x4096, .f32⟩ : BufTy).Contents (Elt Ideal)) (w : (⟨S4096x4096, .f32⟩ : BufTy).Contents (Elt Ideal)) :
    val_main_v14 (F := Ideal) x w = Cert.Ternary.out x w := by
  funext i
  rw [val_main_v14_apply]
  unfold Cert.Ternary.out
  refine Finset.sum_congr rfl fun k _ => ?_
  have el : lidx_main_v14 i k = ix3 (n0 := 2) (n1 := 2048) (n2 := 4096) (i 0) (i 1) k :=
    funext fun a => Fin.ext (by match a with | ⟨0, _⟩ => rfl | ⟨1, _⟩ => rfl | ⟨2, _⟩ => rfl)
  have er : ridx_main_v14 i k = ix2 (n0 := 4096) (n1 := 4096) (i 2) k :=
    funext fun a => Fin.ext (by match a with | ⟨0, _⟩ => rfl | ⟨1, _⟩ => rfl)
  rw [el, er, act_quant, weight_quant]

end Cert.ReferenceIdeal.RefValue

end
-- ==== Proof.lean ====
/-
  The certificate of the ternary-quantized linear layer.

  Both programs quantize activations and weights to three levels and contract over the feature axis; the kernel
  program does it in two regions (the weight quantized and transposed once; then row blocks of quantized activations
  against the whole transposed weight) between two reshapes, the reference in one `dot_general`.  At the ideal
  instance both results are `Cert.Ternary.out` of the arguments:

  * each frame is the generated frame certificate (the reference's: its generated run with the result dropped);
  * the ideal pass rewrote nothing, so the idealization claim is trivial;
  * the idealized kernel's result is read off its run (Proof/KernelRun.lean) and computed from what each region
    leaves (Proof/QuantRegion.lean, Proof/MatmulRegion.lean, joined in Proof/KernelValue.lean);
  * the reference's result is its generated run read one operation at a time (Proof/Reference.lean).

  No property of the inputs is used: the quantized values are finite whatever the inputs are, and the two sides
  differ only in how the terms of each sum are indexed.
-/
import proofs.«132346_j68616397521439_1_alg».proof.Defs
import proofs.«132346_j68616397521439_1_alg».proof.Proof.Gen.Kernel
import proofs.«132346_j68616397521439_1_alg».proof.Proof.Gen.Kernel.Skeleton
import proofs.«132346_j68616397521439_1_alg».proof.Proof.Gen.Kernel.Launch
import proofs.«132346_j68616397521439_1_alg».proof.Proof.Gen.Kernel.Points
import proofs.«132346_j68616397521439_1_alg».proof.Proof.Gen.Kernel.Frame
import proofs.«132346_j68616397521439_1_alg».proof.Proof.Gen.KernelIdeal
import proofs.«132346_j68616397521439_1_alg».proof.Proof.Gen.KernelIdeal.Skeleton
import proofs.«132346_j68616397521439_1_alg».proof.Proof.Gen.KernelIdeal.Launch
import proofs.«132346_j68616397521439_1_alg».proof.Proof.Gen.KernelIdeal.Points
import proofs.«132346_j68616397521439_1_alg».proof.Proof.Gen.KernelIdeal.Frame
import proofs.«132346_j68616397521439_1_alg».proof.Proof.Gen.ReferenceIdeal
import proofs.«132346_j68616397521439_1_alg».proof.Proof.Gen.ReferenceIdeal.Run
import proofs.«132346_j68616397521439_1_alg».proof.Proof.Gen.ReferenceIdeal.Read
import proofs.«132346_j68616397521439_1_alg».proof.Proof.Gen.Pre_finite_inputs
import proofs.«132346_j68616397521439_1_alg».proof.Proof.KernelRun
import proofs.«132346_j68616397521439_1_alg».proof.Proof.KernelValue
import proofs.«132346_j68616397521439_1_alg».proof.Proof.QuantRegion
import proofs.«132346_j68616397521439_1_alg».proof.Proof.MatmulRegion
import proofs.«132346_j68616397521439_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the linear layer on the quantized
    arguments in their result buffers: the kernel program by its run and the two regions' values, the reference by
    its run read at an index. -/
theorem algebraic : Cert.algebraic_KernelIdeal_ReferenceIdeal := by
  intro m ρ m' ρ' _ hagree
  refine ⟨fun c => Cert.Ternary.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Whole.result_value m ρ
          Cert.KernelIdeal.QuantRegion.final Cert.KernelIdeal.MatmulRegion.final c), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.ReferenceIdeal.RefValue.result_eq,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
